-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x65536 : Shape := ⟨3, ![64, 3, 65536]⟩
abbrev S_ : Shape := ⟨0, ![]⟩

class Facts : Prop where
  bcast_S_S64x3x65536 : S_.BroadcastsInDim S64x3x65536 (![] : Fin 0 → Fin S64x3x65536.rank)
  reducesTo_S64x3x65536_S_d0_1_2 : S64x3x65536.ReducesTo [0, 1, 2] S_
  h_S_ : 0 < S_.numel

variable [Facts]

def fn {F : FTy → Type} [FloatOps F] (main_arg0 : FVec F S64x3x65536 .f32) : IVec S_ 1 :=
  let main_v0 : FVec F S64x3x65536 .f32 := Host.absf main_arg0
  let main_cst : FVec F S_ .f32 := constant S_ .f32 0x7F800000#32
  let main_v1 : FVec F S64x3x65536 .f32 := broadcastInDim S64x3x65536 ![] bcast_S_S64x3x65536 main_cst
  let main_v2 : IVec S64x3x65536 1 := cmpf .olt main_v0 main_v1
  let main_c : IVec S_ 1 := constantI S_ 1 1#1
  let main_v3 : IVec S_ 1 := (fun x v => Host.reduce IntOp.andi x v reducesTo_S64x3x65536_S_d0_1_2 h_S_) main_v2 main_c
  main_v3
-- ==== Kernel.lean ====
abbrev S64x3x65536 : Shape := ⟨3, ![64, 3, 65536]⟩
abbrev S64x8x65536 : Shape := ⟨3, ![64, 8, 65536]⟩
abbrev S1x3x65536 : Shape := ⟨3, ![1, 3, 65536]⟩
abbrev S1x8x65536 : Shape := ⟨3, ![1, 8, 65536]⟩
abbrev S1x1x65536 : Shape := ⟨3, ![1, 1, 65536]⟩
abbrev S1x65536 : Shape := ⟨2, ![1, 65536]⟩
abbrev S8x65536 : Shape := ⟨2, ![8, 65536]⟩

abbrev nBuf : Space → Nat
  | .hbm => 4
  | .vmem => 4
  | .smem => 0
  | _ => 0

abbrev bufTy : (tb : Table) → Fin (tcTables nBuf tb) → BufTy
  | .hbm, ⟨0, _⟩ => ⟨S64x3x65536, .f32⟩
  | .hbm, ⟨1, _⟩ => ⟨S64x8x65536, .i32⟩
  | .hbm, ⟨2, _⟩ => ⟨S64x8x65536, .i32⟩
  | .hbm, ⟨3, _⟩ => ⟨S64x8x65536, .i32⟩
  | .local _ .vmem, ⟨0, _⟩ => ⟨S1x3x65536, .f32⟩
  | .local _ .vmem, ⟨1, _⟩ => ⟨S1x3x65536, .f32⟩
  | .local _ .vmem, ⟨2, _⟩ => ⟨S1x8x65536, .i32⟩
  | .local _ .vmem, ⟨3, _⟩ => ⟨S1x8x65536, .i32⟩
  | _, _ => ⟨S64x3x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x3x65536_S1x1x65536_0_0_0 : ∀ a, (![0, 0, 0] : Fin 3 → Nat) a + S1x1x65536.size a ≤ S1x3x65536.size a
  h_S1x1x65536 : 0 < S1x1x65536.numel
  shapeCasts_S1x1x65536_S1x65536 : S1x1x65536.ShapeCasts S1x65536
  natLt_1_32 : 1 < 32
  inb_S1x3x65536_S1x1x65536_0_1_0 : ∀ a, (![0, 1, 0] : Fin 3 → Nat) a + S1x1x65536.size a ≤ S1x3x65536.size a
  inb_S1x3x65536_S1x1x65536_0_2_0 : ∀ a, (![0, 2, 0] : Fin 3 → Nat) a + S1x1x65536.size a ≤ S1x3x65536.size a
  iota_S1x65536_d1_w32 : S1x65536.Iotas .tc 32 [1]
  iota_S8x65536_d0_w32 : S8x65536.Iotas .tc 32 [0]
  shapeCasts_S1x65536_S1x65536 : S1x65536.ShapeCasts S1x65536
  broadcasts_S1x65536_S8x65536 : S1x65536.Broadcasts S8x65536
  inb_S1x8x65536_S1x8x65536_0_0_0 : ∀ a, (![0, 0, 0] : Fin 3 → Nat) a + S1x8x65536.size a ≤ S1x8x65536.size a
  h_S1x8x65536 : 0 < S1x8x65536.numel
  shapeCasts_S1x8x65536_S8x65536 : S1x8x65536.ShapeCasts S8x65536
  shapeCasts_S8x65536_S1x8x65536 : S8x65536.ShapeCasts S1x8x65536
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x65536.size a ≤ S64x3x65536.size a
  hwx0_0 : ∀ i : grid0.Coords, EltTy.bits .f32 = 32 ∨ (Rect.block (s := S64x3x65536) S1x3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x65536.size a ≤ S64x8x65536.size a
  hwx0_1 : ∀ i : grid0.Coords, EltTy.bits .i32 = 32 ∨ (Rect.block (s := S64x8x65536) S1x8x65536.size (cc0_transform_1 i) (hinb0_1 i)).WholeWords (EltTy.packing .i32)

variable [Facts₀]

def comparator_i32_d2 : BitVec 32 → BitVec 32 → BitVec 1 :=
  fun l r =>
    let v1 := IntOp.cmpi .slt l r
    v1

abbrev win0_0 : Pipeline.Window sig grid0 :=
  Pipeline.Window.ofSpec (Memref.whole main_arg0) S1x3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x65536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x3x65536 : Shape := ⟨3, ![64, 3, 65536]⟩
abbrev S_ : Shape := ⟨0, ![]⟩
abbrev S64x1x65536 : Shape := ⟨3, ![64, 1, 65536]⟩
abbrev S64x65536 : Shape := ⟨2, ![64, 65536]⟩
abbrev S65536 : Shape := ⟨1, ![65536]⟩
abbrev S8 : Shape := ⟨1, ![8]⟩
abbrev S1x8x1 : Shape := ⟨3, ![1, 8, 1]⟩
abbrev S64x8x65536 : Shape := ⟨3, ![64, 8, 65536]⟩
abbrev S1x1x65536 : Shape := ⟨3, ![1, 1, 65536]⟩

abbrev nBuf : Space → Nat
  | .hbm => 33
  | .vmem => 0
  | .smem => 0
  | _ => 0

abbrev bufTy : (tb : Table) → Fin (tcTables nBuf tb) → BufTy
  | .hbm, ⟨0, _⟩ => ⟨S64x3x65536, .f32⟩
  | .hbm, ⟨1, _⟩ => ⟨S_, .f32⟩
  | .hbm, ⟨2, _⟩ => ⟨S64x3x65536, .f32⟩
  | .hbm, ⟨3, _⟩ => ⟨S64x3x65536, .i1⟩
  | .hbm, ⟨4, _⟩ => ⟨S64x3x65536, .i32⟩
  | .hbm, ⟨5, _⟩ => ⟨S64x1x65536, .i32⟩
  | .hbm, ⟨6, _⟩ => ⟨S64x65536, .i32⟩
  | .hbm, ⟨7, _⟩ => ⟨S_, .i32⟩
  | .hbm, ⟨8, _⟩ => ⟨S64x65536, .i32⟩
  | .hbm, ⟨9, _⟩ => ⟨S64x65536, .i32⟩
  | .hbm, ⟨10, _⟩ => ⟨S64x1x65536, .i32⟩
  | .hbm, ⟨11, _⟩ => ⟨S64x65536, .i32⟩
  | .hbm, ⟨12, _⟩ => ⟨S_, .i32⟩
  | .hbm, ⟨13, _⟩ => ⟨S64x65536, .i32⟩
  | .hbm, ⟨14, _⟩ => ⟨S64x65536, .i32⟩
  | .hbm, ⟨15, _⟩ => ⟨S64x65536, .i32⟩
  | .hbm, ⟨16, _⟩ => ⟨S64x1x65536, .i32⟩
  | .hbm, ⟨17, _⟩ => ⟨S64x65536, .i32⟩
  | .hbm, ⟨18, _⟩ => ⟨S64x65536, .i32⟩
  | .hbm, ⟨19, _⟩ => ⟨S65536, .i32⟩
  | .hbm, ⟨20, _⟩ => ⟨S64x1x65536, .i32⟩
  | .hbm, ⟨21, _⟩ => ⟨S8, .i32⟩
  | .hbm, ⟨22, _⟩ => ⟨S1x8x1, .i32⟩
  | .hbm, ⟨23, _⟩ => ⟨S64x8x65536, .i32⟩
  | .hbm, ⟨24, _⟩ => ⟨S64x8x65536, .i32⟩
  | .hbm, ⟨25, _⟩ => ⟨S64x8x65536, .i1⟩
  | .hbm, ⟨26, _⟩ => ⟨S1x1x65536, .i32⟩
  | .hbm, ⟨27, _⟩ => ⟨S_, .i32⟩
  | .hbm, ⟨28, _⟩ => ⟨S64x8x65536, .i32⟩
  | .hbm, ⟨29, _⟩ => ⟨S64x8x65536, .i32⟩
  | .hbm, ⟨30, _⟩ => ⟨S64x8x65536, .i32⟩
  | .hbm, ⟨31, _⟩ => ⟨S64x8x65536, .i32⟩
  | .hbm, ⟨32, _⟩ => ⟨S64x8x65536, .i32⟩
  | _, _ => ⟨S64x3x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_1 : Ref sig .tc := ⟨.hbm, 27, rfl⟩
abbrev main_call0_v0 : Ref sig .tc := ⟨.hbm, 28, rfl⟩
abbrev main_call0_v1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S_S64x3x65536 : S_.BroadcastsInDim S64x3x65536 (![] : Fin 0 → Fin S64x3x65536.rank)
  natLt_1_32 : 1 < 32
  slices_S64x3x65536_S64x1x65536_0_0_0 : S64x3x65536.Slices ![0, 0, 0] S64x1x65536
  shapeCasts_S64x1x65536_S64x65536 : S64x1x65536.ShapeCasts S64x65536
  bcast_S_S64x65536 : S_.BroadcastsInDim S64x65536 (![] : Fin 0 → Fin S64x65536.rank)
  slices_S64x3x65536_S64x1x65536_0_1_0 : S64x3x65536.Slices ![0, 1, 0] S64x1x65536
  slices_S64x3x65536_S64x1x65536_0_2_0 : S64x3x65536.Slices ![0, 2, 0] S64x1x65536
  bcast_S64x65536_S64x1x65536_0_2 : S64x65536.BroadcastsInDim S64x1x65536 (![0, 2] : Fin 2 → Fin S64x1x65536.rank)
  bcast_S8_S1x8x1_1 : S8.BroadcastsInDim S1x8x1 (![1] : Fin 1 → Fin S1x8x1.rank)
  bcast_S64x1x65536_S64x8x65536_0_1_2 : S64x1x65536.BroadcastsInDim S64x8x65536 (![0, 1, 2] : Fin 3 → Fin S64x8x65536.rank)
  bcast_S1x8x1_S64x8x65536_0_1_2 : S1x8x1.BroadcastsInDim S64x8x65536 (![0, 1, 2] : Fin 3 → Fin S64x8x65536.rank)
  bcast_S65536_S1x1x65536_2 : S65536.BroadcastsInDim S1x1x65536 (![2] : Fin 1 → Fin S1x1x65536.rank)
  bcast_S1x1x65536_S64x8x65536_0_1_2 : S1x1x65536.BroadcastsInDim S64x8x65536 (![0, 1, 2] : Fin 3 → Fin S64x8x65536.rank)
  bcast_S_S64x8x65536 : S_.BroadcastsInDim S64x8x65536 (![] : Fin 0 → Fin S64x8x65536.rank)

variable [Facts₀]

def comparator_i32_d2 : BitVec 32 → BitVec 32 → BitVec 1 :=
  fun l r =>
    let v1 := IntOp.cmpi .slt l r
    v1

class Facts : Prop extends Facts₀ where

variable [Facts]
-- ==== Proof.OctantSpec.lean ====
/-
  The octant-slot table, as one function of the point cloud.

  A cloud holds 65536 points per batch, each with three coordinates. A point's octant is the number
  4·[x ≥ 0] + 2·[y ≥ 0] + [z ≥ 0] (each bracket is 1 when the comparison holds, 0 otherwise), a value in 0..7.
  The table has, per batch, eight rows of 65536 slots: slot i of row o holds the point's own index i when
  point i lies in octant o, and 0 otherwise. Both programs build this table and then pack each row by
  sorting it and reversing it; the packing is the same function on both sides, so everything rests on
  the table being the same function of the cloud.

  Nothing here depends on what a float is: the only float operation is the comparison with the zero
  word, and both programs apply that same comparison to the same element.
-/
import Idealize.ShloMosaic.Lib.ValueIdx

noncomputable section

namespace Cert.Octant

open Idealize.ShloMosaic Idealize.ShloMosaic.ValueIdx

variable {F : FTy → Type} [FloatOps F]

/-- The indicator of a coordinate being at least zero, as a 32-bit word (1 or 0). -/
def nonneg (v : F .f32) : BitVec 32 :=
  (FloatOps.cmpf .oge v (FloatOps.ofBits .f32 0x00000000#32)).setWidth 32

/-- A point's octant: 4·[x ≥ 0] + 2·[y ≥ 0] + [z ≥ 0], summed in that order. -/
def octantOf (x y z : F .f32) : BitVec 32 :=
  IntOp.addi (IntOp.addi (IntOp.muli (nonneg x) 4#32) (IntOp.muli (nonneg y) 2#32)) (nonneg z)

/-- Slot `i` of row `o`, for a point whose octant is `oct`: the index `i` when `o` is that octant, else 0. -/
def slot (oct : BitVec 32) (o : Fin 8) (i : Fin 65536) : BitVec 32 :=
  Scalar.select (IntOp.cmpi .eq (BitVec.ofNat 32 o.val) oct) (BitVec.ofNat 32 i.val) 0#32

/-- The slot of batch `b`, row `o`, position `i`, read off the cloud `x`. -/
def slotAt (x : (⟨3, ![64, 3, 65536]⟩ : Shape).Idx → F .f32) (b : Fin 64) (o : Fin 8) (i : Fin 65536) : BitVec 32 :=
  slot (octantOf (x (ix3 b (0 : Fin 3) i)) (x (ix3 b (1 : Fin 3) i)) (x (ix3 b (2 : Fin 3) i))) o i

/-- The whole table, index by index. -/
def slots (x : (⟨3, ![64, 3, 65536]⟩ : Shape).Idx → F .f32) : (⟨3, ![64, 8, 65536]⟩ : Shape).Idx → BitVec 32 :=
  fun k => slotAt x (k 0) (k 1) (k 2)

/-- Equality of two words is symmetric, also as a one-bit word. -/
theorem cmpi_eq_comm {w : Nat} (a b : BitVec w) : IntOp.cmpi .eq a b = IntOp.cmpi .eq b a := by
  rcases eq_or_ne a b with rfl | h
  · rfl
  · have h1 : (a == b) = false := beq_false_of_ne h
    have h2 : (b == a) = false := beq_false_of_ne h.symm
    show BitVec.ofBool (a == b) = BitVec.ofBool (b == a)
    rw [h1, h2]

end Cert.Octant

end
-- ==== Proof.OctantBlock.lean ====
/-
  One batch's block of the table, read at a slot.

  At one grid point the kernel body loads the three coordinate rows of one batch (each a 1×1×65536 piece of the
  1×3×65536 input block), and stores one 1×8×65536 block. Entry (0, o, i) of the stored block is the slot of
  row o, position i: the row number o comes from an iota along the eight rows, the position i from an iota
  along the 65536 lanes, and the point's octant from the three loaded rows at lane i, broadcast down the rows.
-/
import proofs.«173588_j17042430231231_2_alg».proof.Proof.Gen.KernelIdeal.Skeleton
import proofs.«173588_j17042430231231_2_alg».proof.Proof.OctantSpec
import Idealize.ShloMosaic.Lib.Pipeline.Value
import Idealize.ShloMosaic.Lib.ValueIdx

noncomputable section

namespace Cert.Octant

open Idealize.ShloMosaic Idealize.ShloMosaic.ValueIdx Cert.KernelIdeal Cert.KernelIdeal.Gen

variable {F : FTy → Type} [FloatOps F]

section Layout
variable {α : Type}

/-- A 1×1×65536 row viewed as 1×65536 keeps its lane. -/
theorem row_drop (v : S1x1x65536.Idx → α) (h : S1x1x65536.ShapeCasts S1x65536) (i : Fin 65536) :
    shapeCast S1x65536 v h (ix2 (0 : Fin 1) i) = v (ix3 (0 : Fin 1) (0 : Fin 1) i) :=
  shapeCast_apply v h _ _ (by
    rw [Shape.rowMajor_val_three, Shape.rowMajor_val_two]
    show (0 * 1 + 0) * 65536 + i.val = 0 * 65536 + i.val
    omega)

/-- A 1×65536 row broadcast down eight rows reads, at row `o` and lane `i`, the row at lane `i`. -/
theorem row_down (u : S1x65536.Idx → α) (h : S1x65536.Broadcasts S8x65536) (o : Fin 8) (i : Fin 65536) :
    broadcastTo S8x65536 u h (ix2 o i) = u (ix2 (0 : Fin 1) i) :=
  broadcastTo_apply u h _ _ (fun a => match a with
    | ⟨0, _⟩ => by show (0 : ℕ) = if (1 : ℕ) = 1 then 0 else o.val; rw [if_pos rfl]
    | ⟨1, _⟩ => by show i.val = if (65536 : ℕ) = 1 then 0 else i.val; rw [if_neg (by decide)])

/-- An 8×65536 table stored as a 1×8×65536 block reads, at (0, o, i), the table at (o, i). -/
theorem table_block (u : S8x65536.Idx → α) (h : S8x65536.ShapeCasts S1x8x65536) (o : Fin 8) (i : Fin 65536) :
    shapeCast S1x8x65536 u h (ix3 (0 : Fin 1) o i) = u (ix2 o i) :=
  shapeCast_apply u h _ _ (by
    rw [Shape.rowMajor_val_two, Shape.rowMajor_val_three]
    show o.val * 65536 + i.val = (0 * 8 + o.val) * 65536 + i.val
    omega)

end Layout

section Words
variable {s : Shape} {w : Nat}

/-- Integer vector operations act element by element. -/
theorem cmpi_at (p : CmpIPredicate) (a b : IVec s w) (k : s.Idx) : cmpi p a b k = IntOp.cmpi p (a k) (b k) := rfl
theorem addi_at (a b : IVec s w) (k : s.Idx) : addi a b k = IntOp.addi (a k) (b k) := rfl
theorem muli_at (a b : IVec s w) (k : s.Idx) : muli a b k = IntOp.muli (a k) (b k) := rfl

end Words

/-- THE STORED BLOCK AT A SLOT: entry (0, o, i) of what the body stores is the slot of row `o`, position `i`, for the point
    whose coordinates are the three loaded rows at lane `i`. -/
theorem stored_apply (v0 v5 v10 : Vec F S1x1x65536 .f32) (o : Fin 8) (i : Fin 65536) :
    k0_pay1 v0 v5 v10 (ix3 (0 : Fin 1) o i)
      = slot (octantOf (v0 (ix3 (0 : Fin 1) (0 : Fin 1) i)) (v5 (ix3 (0 : Fin 1) (0 : Fin 1) i)) (v10 (ix3 (0 : Fin 1) (0 : Fin 1) i))) o i := by
  unfold k0_pay1
  simp only [table_block, select_apply, cmpi_at, row_down, shapeCast_self, iota_single_apply, addi_at, muli_at,
    extui_apply, cmpf_apply, broadcast_apply, row_drop]
  rw [iota_single_apply .tc S8x65536 32 (0 : Fin 2) iota_S8x65536_d0_w32 (ix2 o i),
    iota_single_apply .tc S1x65536 32 (1 : Fin 2) iota_S1x65536_d1_w32 (ix2 (0 : Fin 1) i)]
  rfl

end Cert.Octant

end
-- ==== Proof.OctantArray.lean ====
/-
  From the blocks to the whole table.

  The grid has one point per batch. At point t the input window's block is batch t of the cloud (all three
  coordinate rows, all 65536 points) and the output window's block is batch t of the table (all eight rows).
  So what point t writes back is batch t of the table computed from batch t of the cloud, which is block t of
  ONE function of the whole cloud, `slots`; and since every batch is some point's block, the array the kernel
  region leaves is `slots` of the cloud.
-/
import proofs.«173588_j17042430231231_2_alg».proof.Proof.Gen.KernelIdeal.Frame
import proofs.«173588_j17042430231231_2_alg».proof.Proof.OctantBlock
import Idealize.ShloMosaic.Lib.Pipeline.Value
import Idealize.ShloMosaic.Lib.ValueIdx

noncomputable section

namespace Cert.Octant

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl

/-- Both windows move with the grid point along the batch axis only: block index (t, 0, 0) at point t. -/
theorem batch_index : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- A grid point as a batch number. -/
def batch (t : Fin cfg0.N) : Fin 64 := ⟨t.val, by have h := t.isLt; have e : cfg0.N = 64 := N_0; omega⟩

/-- THE BLOCK A POINT STORES, AT A SLOT: from the input block `x0` (one batch: three rows of 65536 coordinates), entry
    (0, o, i) is the slot of row `o`, position `i`, for the point whose coordinates are `x0` at (0, ·, i). -/
theorem block_apply (x0 : Vec F S1x3x65536 .f32) (o : Fin 8) (i : Fin 65536) :
    out0_1 x0 (ix3 (0 : Fin 1) o i)
      = slot (octantOf (x0 (ix3 (0 : Fin 1) (0 : Fin 3) i)) (x0 (ix3 (0 : Fin 1) (1 : Fin 3) i)) (x0 (ix3 (0 : Fin 1) (2 : Fin 3) i))) o i := by
  unfold out0_1
  rw [View.canon_unit_zero zero3, stored_apply]
  have e0 : View.ld x0 r0_0 (ix3 (0 : Fin 1) (0 : Fin 1) i) = x0 (ix3 (0 : Fin 1) (0 : Fin 3) i) :=
    congrArg x0 (funext fun a => Fin.ext (by
      match a with
      | ⟨0, _⟩ => rfl
      | ⟨1, _⟩ => rfl
      | ⟨2, _⟩ => show 0 + 1 * i.val = i.val; omega))
  have e1 : View.ld x0 r0_1 (ix3 (0 : Fin 1) (0 : Fin 1) i) = x0 (ix3 (0 : Fin 1) (1 : Fin 3) i) :=
    congrArg x0 (funext fun a => Fin.ext (by
      match a with
      | ⟨0, _⟩ => rfl
      | ⟨1, _⟩ => rfl
      | ⟨2, _⟩ => show 0 + 1 * i.val = i.val; omega))
  have e2 : View.ld x0 r0_2 (ix3 (0 : Fin 1) (0 : Fin 1) i) = x0 (ix3 (0 : Fin 1) (2 : Fin 3) i) :=
    congrArg x0 (funext fun a => Fin.ext (by
      match a with
      | ⟨0, _⟩ => rfl
      | ⟨1, _⟩ => rfl
      | ⟨2, _⟩ => show 0 + 1 * i.val = i.val; omega))
  rw [e0, e1, e2]

/-- The input window's block at point t is batch t of the cloud: entry (0, r, i) is the cloud at (t, r, i). -/
theorem cloud_block (c : Dev nD) (t : Fin cfg0.N) (r : Fin 3) (i : Fin 65536) :
    (iblk m c 0 t : Vec F S1x3x65536 .f32) (ix3 (0 : Fin 1) r i)
      = (V m c main_arg0 : S64x3x65536.Idx → Elt F .f32) (ix3 (batch t) r i) := by
  obtain ⟨e0, e1, e2, -, -, -⟩ := batch_index t
  unfold iblk
  rw [View.read_apply]
  show V m c main_arg0 _ = V m c main_arg0 _
  congr 1
  funext a
  apply Fin.ext
  match a with
  | ⟨0, _⟩ => show win0_0.index t (0 : Fin 3) * 1 + 1 * 0 = t.val; rw [e0]; omega
  | ⟨1, _⟩ => show win0_0.index t (1 : Fin 3) * 3 + 1 * r.val = r.val; rw [e1]; omega
  | ⟨2, _⟩ => show win0_0.index t (2 : Fin 3) * 65536 + 1 * i.val = i.val; rw [e2]; omega

/-- WHAT POINT t WRITES BACK is block t of `slots` of the cloud as the region finds it. -/
theorem flushed_eq (c : Dev nD) (t : Fin cfg0.N) :
    (dats m 0 c).flushed 1 t = ((cfg0.win 1).blk t).view.read (Elt F) (slots (V m c main_arg0)) := by
  show (cfg0.win 1).cut (grid0.coords t) ((dats m 0 c).after 1 t) = _
  rw [after0_1]
  obtain ⟨-, -, -, e3, e4, e5⟩ := batch_index t
  funext j
  obtain ⟨a, o, i, rfl⟩ : ∃ (a : Fin 1) (o : Fin 8) (i : Fin 65536), j = ix3 a o i := ⟨j 0, j 1, j 2, eq_ix3 j⟩
  obtain rfl : a = 0 := Subsingleton.elim _ _
  have hk : ((cfg0.win 1).blk t).view.emb (ix3 (0 : Fin 1) o i) = ix3 (batch t) o i := by
    funext a
    apply Fin.ext
    match a with
    | ⟨0, _⟩ => show win0_1.index t (0 : Fin 3) * 1 + 1 * 0 = t.val; rw [e3]; omega
    | ⟨1, _⟩ => show win0_1.index t (1 : Fin 3) * 8 + 1 * o.val = o.val; rw [e4]; omega
    | ⟨2, _⟩ => show win0_1.index t (2 : Fin 3) * 65536 + 1 * i.val = i.val; rw [e5]; omega
  show out0_1 (iblk m c 0 t) (ix3 (0 : Fin 1) o i) = slots (V m c main_arg0) (((cfg0.win 1).blk t).view.emb (ix3 (0 : Fin 1) o i))
  rw [hk]
  refine (block_apply (iblk m c 0 t) o i).trans ?_
  rw [cloud_block m c t 0 i, cloud_block m c t 1 i, cloud_block m c t 2 i]
  rfl

/-- An index of the table is in point t's block iff each coordinate is in the block's range on its axis. -/
theorem mem_block (t : Fin cfg0.N) (k : S64x8x65536.Idx) :
    k ∈ ((cfg0.win 1).blk t).view.set ↔ ∀ a : Fin 3, win0_1.index t a * S1x8x65536.size a ≤ (k a).val
      ∧ (k a).val < win0_1.index t a * S1x8x65536.size a + S1x8x65536.size a := by
  show k ∈ ((View.whole main_v0).slice (win0_1.rect t)).set ↔ _
  rw [View.set_slice_whole, Rect.mem_set_unit]
  exact Iff.rfl

/-- Every index of the table is in the block of the point numbered by its batch. -/
theorem covered (k : S64x8x65536.Idx) :
    ∃ t : Fin cfg0.N, (cfg0.win 1).flush t = true ∧ k ∈ ((cfg0.win 1).blk t).view.set := by
  have h0 : (k 0).val < 64 := (k 0).isLt
  have h1 : (k 1).val < 8 := (k 1).isLt
  have h2 : (k 2).val < 65536 := (k 2).isLt
  have hN : cfg0.N = 64 := N_0
  let t : Fin cfg0.N := ⟨(k 0).val, by omega⟩
  obtain ⟨-, -, -, e3, e4, e5⟩ := batch_index t
  refine ⟨t, flush0_1 t, ?_⟩
  rw [mem_block]
  intro a
  match a with
  | ⟨0, _⟩ => show win0_1.index t (0 : Fin 3) * 1 ≤ (k 0).val ∧ (k 0).val < win0_1.index t (0 : Fin 3) * 1 + 1; rw [e3]; show (k 0).val * 1 ≤ (k 0).val ∧ (k 0).val < (k 0).val * 1 + 1; omega
  | ⟨1, _⟩ => show win0_1.index t (1 : Fin 3) * 8 ≤ (k 1).val ∧ (k 1).val < win0_1.index t (1 : Fin 3) * 8 + 8; rw [e4]; omega
  | ⟨2, _⟩ => show win0_1.index t (2 : Fin 3) * 65536 ≤ (k 2).val ∧ (k 2).val < win0_1.index t (2 : Fin 3) * 65536 + 65536; rw [e5]; omega

/-- THE TABLE after the kernel region: `slots` of the cloud as launched. -/
theorem table (c : Dev nD) : (dats m 0 c).arrAt 1 cfg0.N = slots (m ((c : Thread nD τ).loc main_arg0)) :=
  (dats m 0 c).arrAt_eq_of_cover 1 (slots (V m c main_arg0)) (fun t _ => flushed_eq m c t) covered

end Cert.Octant

end
-- ==== Proof.OctantKernel.lean ====
/-
  The kernel program's result.

  After the kernel region has left the table in its result array, the program sorts each row of the table
  ascending and then reverses it, so that the point indices of each octant come first, in descending order.
  Here the two host operations are read on the table — they are applied to it as they stand, never opened — and the
  program's run is stated with its result at that term of the cloud.
-/
import proofs.«173588_j17042430231231_2_alg».proof.Proof.OctantArray
import Idealize.ShloMosaic.Lib.StableHlo.Run

noncomputable section

namespace Cert.Octant

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- What the region's exit contents hold at the table's array: the table. -/
theorem exit_table (c : Dev nD) :
    Pipeline.withArrays spec0 c (V0 m c) (fun w => (dats m 0 c).arrAt w cfg0.N) (Proc.devRef .tc main_v0)
      = slots (m ((c : Thread nD τ).loc main_arg0)) :=
  (Pipeline.withArrays_arr spec0 launch0.win.arr_inj c (V0 m c) (fun w => (dats m 0 c).arrAt w cfg0.N) 1).trans (table m c)

/-- THE RESULT BUFFER after the two lines that follow the region: each row of the table sorted, then reversed. -/
theorem packed_result (c : Dev nD) :
    Pipeline.afterTail₀ cfgs (dats m) 0 (V0 m) [hostOps1, hostOps1_1] c main_v2
      = Host.reverse [2] (Host.sort S64x8x65536 2 comparator_i32_d2 (slots (m ((c : Thread nD τ).loc main_arg0)))) := by
  unfold Pipeline.afterTail₀
  simp only [hostOps1, hostOps1_1, List.flatten_cons, List.flatten_nil, List.append_nil, List.cons_append, List.nil_append]
  after_results
  show Host.reverse [2] (Host.sort S64x8x65536 2 comparator_i32_d2
    (Pipeline.withArrays spec0 c (V0 m c) (fun w => (dats m 0 c).arrAt w cfg0.N) (Proc.devRef .tc main_v0))) = _
  rw [exit_table]

/-- The result buffer is no array of the pipeline and is not scoped, so the frame run states it after the last line. -/
theorem result_bypasses : main_v2 ∈ Pipeline.restRefs sig (cfgs 0).spec :=
  Pipeline.mem_restRefs_of main_v2 rfl (fun w => by fin_cases w <;> decide)

/-- THE RUN, READ: every weakly fair execution of the kernel program terminates with its result at the packed table of
    the cloud as launched, the cloud unchanged. -/
theorem run : θ_run defs (onTc (τ := τ) (main (F := F))) ⟨m, fun _ => 0, ρ⟩ fun r => ∀ c : Dev nD,
      r.2.mem ((c : Thread nD τ).loc main_v2)
        = Host.reverse [2] (Host.sort S64x8x65536 2 comparator_i32_d2 (slots (m ((c : Thread nD τ).loc main_arg0))))
      ∧ r.2.mem ((c : Thread nD τ).loc main_arg0) = m ((c : Thread nD τ).loc main_arg0) :=
  (θ_run defs _ _).mono (fun r h c => ⟨((h c).2 main_v2 result_bypasses).trans (packed_result m c),
      ((h c).1 0).trans (((dats m 0 c).arrAt_in 0 rfl _).trans ((A_eq m c 0).trans (V_main_arg0 m c)))⟩)
    (run_main m ρ)

end Cert.Octant

end
-- ==== Proof.OctantReference.lean ====
/-
  The reference builds the same table.

  The reference compares the whole cloud with zero at once, slices out the three coordinate planes, forms the octant
  of every point as 4·[x ≥ 0] + 2·[y ≥ 0] + [z ≥ 0] in that order, and selects, over the 64×8×65536 table, the lane
  number where the octant equals the row number and 0 elsewhere. Read at batch b, row o, lane i, every slice,
  reshape and broadcast on the way only moves coordinates: the three planes are read at (b, 0, i), (b, 1, i),
  (b, 2, i), the row iota at o, the lane iota at i. The equality test has its two sides in the other order than
  in the table's definition; equality is symmetric.
-/
import proofs.«173588_j17042430231231_2_alg».proof.Proof.Gen.ReferenceIdeal.Read
import proofs.«173588_j17042430231231_2_alg».proof.Proof.OctantSpec
import Idealize.ShloMosaic.Lib.ValueIdx

noncomputable section

namespace Cert.Octant

open Idealize.ShloMosaic Idealize.ShloMosaic.ValueIdx Cert.ReferenceIdeal Cert.ReferenceIdeal.Read

variable {F : FTy → Type} [FloatOps F]

/-- The x plane's element for table entry (b, o, i) is the cloud's at (b, 0, i). -/
theorem path_x (b : Fin 64) (o : Fin 8) (i : Fin 65536) :
    idx_main_v3 (idx_main_v4 (idx_main_v16 (idx_main_v19 (ix3 b o i)))) = ix3 b (0 : Fin 3) i := by
  funext a; apply Fin.ext
  match a with
  | ⟨0, _⟩ => show (b.val * 65536 + i.val) / 65536 = b.val; omega
  | ⟨1, _⟩ => rfl
  | ⟨2, _⟩ => show (b.val * 65536 + i.val) % 65536 = i.val; omega

/-- The y plane's element for table entry (b, o, i) is the cloud's at (b, 1, i). -/
theorem path_y (b : Fin 64) (o : Fin 8) (i : Fin 65536) :
    idx_main_v7 (idx_main_v8 (idx_main_v16 (idx_main_v19 (ix3 b o i)))) = ix3 b (1 : Fin 3) i := by
  funext a; apply Fin.ext
  match a with
  | ⟨0, _⟩ => show (b.val * 65536 + i.val) / 65536 = b.val; omega
  | ⟨1, _⟩ => rfl
  | ⟨2, _⟩ => show (b.val * 65536 + i.val) % 65536 = i.val; omega

/-- The z plane's element for table entry (b, o, i) is the cloud's at (b, 2, i). -/
theorem path_z (b : Fin 64) (o : Fin 8) (i : Fin 65536) :
    idx_main_v12 (idx_main_v13 (idx_main_v16 (idx_main_v19 (ix3 b o i)))) = ix3 b (2 : Fin 3) i := by
  funext a; apply Fin.ext
  match a with
  | ⟨0, _⟩ => show (b.val * 65536 + i.val) / 65536 = b.val; omega
  | ⟨1, _⟩ => rfl
  | ⟨2, _⟩ => show (b.val * 65536 + i.val) % 65536 = i.val; omega

/-- THE REFERENCE'S TABLE, before it is packed, is `slots` of the cloud. -/
theorem reference_table (x0 : (⟨S64x3x65536, .f32⟩ : BufTy).Contents (Elt F)) :
    val_main_v23 (F := F) x0 = slots x0 := by
  funext k
  obtain ⟨b, o, i, rfl⟩ : ∃ (b : Fin 64) (o : Fin 8) (i : Fin 65536), k = ix3 b o i := ⟨k 0, k 1, k 2, eq_ix3 k⟩
  simp only [val_main_v23_apply, val_main_v21_apply, val_main_v19_apply, val_main_v16_apply, val_main_v14_apply,
    val_main_v11_apply, val_main_v6_apply, val_main_v10_apply, val_main_v4_apply, val_main_v8_apply, val_main_v13_apply,
    val_main_v3_apply, val_main_v7_apply, val_main_v12_apply, val_main_v2_apply, val_main_v1_apply, val_main_v0_apply,
    val_main_cst_apply, val_main_v5_apply, val_main_c_apply, val_main_v9_apply, val_main_c_0_apply, val_main_v20_apply,
    val_main_v18_apply, val_main_v17_apply, val_main_call0_v0_apply, val_main_v22_apply, val_main_v15_apply,
    val_main_call0_v1_apply, val_main_c_1_apply, path_x, path_y, path_z]
  rw [cmpi_eq_comm]
  rfl

end Cert.Octant

end
-- ==== Proof.lean ====
/-
  Octant slots of a point cloud: the kernel program and the reference compute the same packed table.

  For a cloud of 64 batches of 65536 points, both programs first build the 64×8×65536 table whose entry (b, o, i) is
  the index i when point i of batch b lies in octant o — the octant being 4·[x ≥ 0] + 2·[y ≥ 0] + [z ≥ 0] — and 0
  otherwise, and then pack every row by sorting it ascending and reversing it. The kernel program builds the table one
  batch per grid point inside its kernel region; the reference builds it with whole-array comparisons, slices and
  broadcasts. Proof/OctantSpec.lean states the table as one function of the cloud; Proof/OctantBlock.lean and
  Proof/OctantArray.lean show that the kernel region leaves exactly that function in its result array (one block per
  batch, the blocks covering the array); Proof/OctantKernel.lean reads the two packing operations on it;
  Proof/OctantReference.lean shows the reference's table is the same function. The packing is one and the same
  function on both sides and is never opened. The only float operation, the comparison of a coordinate with the zero
  word, is applied by both programs to the same element, so no property of the numbers is used and the finiteness
  of the inputs is never called on.

  The three frames: the two kernel programs' are the generated frame theorems, the reference's is its generated run
  with the result dropped. The idealization rewrote nothing, so `preserves` is `True`.
-/
import proofs.«173588_j17042430231231_2_alg».proof.Defs
import proofs.«173588_j17042430231231_2_alg».proof.Proof.Gen.Kernel
import proofs.«173588_j17042430231231_2_alg».proof.Proof.Gen.Kernel.Skeleton
import proofs.«173588_j17042430231231_2_alg».proof.Proof.Gen.Kernel.Launch
import proofs.«173588_j17042430231231_2_alg».proof.Proof.Gen.Kernel.Points
import proofs.«173588_j17042430231231_2_alg».proof.Proof.Gen.Kernel.Frame
import proofs.«173588_j17042430231231_2_alg».proof.Proof.Gen.KernelIdeal
import proofs.«173588_j17042430231231_2_alg».proof.Proof.Gen.KernelIdeal.Skeleton
import proofs.«173588_j17042430231231_2_alg».proof.Proof.Gen.KernelIdeal.Launch
import proofs.«173588_j17042430231231_2_alg».proof.Proof.Gen.KernelIdeal.Points
import proofs.«173588_j17042430231231_2_alg».proof.Proof.Gen.KernelIdeal.Frame
import proofs.«173588_j17042430231231_2_alg».proof.Proof.Gen.ReferenceIdeal
import proofs.«173588_j17042430231231_2_alg».proof.Proof.Gen.ReferenceIdeal.Run
import proofs.«173588_j17042430231231_2_alg».proof.Proof.Gen.ReferenceIdeal.Read
import proofs.«173588_j17042430231231_2_alg».proof.Proof.Gen.Pre_finite_inputs
import proofs.«173588_j17042430231231_2_alg».proof.Proof.OctantKernel
import proofs.«173588_j17042430231231_2_alg».proof.Proof.OctantReference
import Idealize.ShloMosaic.Adequacy
import Idealize.ShloMosaic.Init

noncomputable section

namespace Cert.Proof

open Idealize.ShloMosaic Idealize.SL.Sem

/-- The kernel program, as printed, runs and leaves the cloud unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From clouds that agree, the kernel program ends at the packed table of its cloud and the reference at the packed
    table of its own: the reference's table before packing is `slots` of the cloud (`reference_table`), the clouds are
    equal, and the two programs' sort comparators are the same function (signed less-than). -/
theorem algebraic : Cert.algebraic_KernelIdeal_ReferenceIdeal := by
  intro m ρ m' ρ' _ hagree
  refine ⟨_, Cert.Octant.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq]
  unfold Cert.ReferenceIdeal.Read.val_main_v25 Cert.ReferenceIdeal.Read.val_main_v24
  rw [Cert.Octant.reference_table, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
